-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x8192 : Shape := ⟨3, ![64, 64, 8192]⟩
abbrev S_ : Shape := ⟨0, ![]⟩

class Facts : Prop where
  bcast_S_S64x64x8192 : S_.BroadcastsInDim S64x64x8192 (![] : Fin 0 → Fin S64x64x8192.rank)
  reducesTo_S64x64x8192_S_d0_1_2 : S64x64x8192.ReducesTo [0, 1, 2] S_
  h_S_ : 0 < S_.numel

variable [Facts]

def fn {F : FTy → Type} [FloatOps F] (main_arg0 : FVec F S64x64x8192 .f32) (main_arg1 : FVec F S64x64x8192 .f32) : IVec S_ 1 :=
  let main_v0 : FVec F S64x64x8192 .f32 := Host.absf main_arg0
  let main_cst : FVec F S_ .f32 := constant S_ .f32 0x7F800000#32
  let main_v1 : FVec F S64x64x8192 .f32 := broadcastInDim S64x64x8192 ![] bcast_S_S64x64x8192 main_cst
  let main_v2 : IVec S64x64x8192 1 := cmpf .olt main_v0 main_v1
  let main_c : IVec S_ 1 := constantI S_ 1 1#1
  let main_v3 : IVec S_ 1 := (fun x v => Host.reduce IntOp.andi x v reducesTo_S64x64x8192_S_d0_1_2 h_S_) main_v2 main_c
  let main_v4 : FVec F S64x64x8192 .f32 := Host.absf main_arg1
  let main_cst_0 : FVec F S_ .f32 := constant S_ .f32 0x7F800000#32
  let main_v5 : FVec F S64x64x8192 .f32 := broadcastInDim S64x64x8192 ![] bcast_S_S64x64x8192 main_cst_0
  let main_v6 : IVec S64x64x8192 1 := cmpf .olt main_v4 main_v5
  let main_c_1 : IVec S_ 1 := constantI S_ 1 1#1
  let main_v7 : IVec S_ 1 := (fun x v => Host.reduce IntOp.andi x v reducesTo_S64x64x8192_S_d0_1_2 h_S_) main_v6 main_c_1
  let main_v8 : IVec S_ 1 := andi main_v3 main_v7
  main_v8
-- ==== Kernel.lean ====
abbrev S64x64x8192 : Shape := ⟨3, ![64, 64, 8192]⟩
abbrev S4096x8192 : Shape := ⟨2, ![4096, 8192]⟩
abbrev S128x8192 : Shape := ⟨2, ![128, 8192]⟩
abbrev S128 : Shape := ⟨1, ![128]⟩
abbrev S128x1 : Shape := ⟨2, ![128, 1]⟩

abbrev nBuf : Space → Nat
  | .hbm => 6
  | .vmem => 6
  | .smem => 0
  | _ => 0

abbrev bufTy : (tb : Table) → Fin (tcTables nBuf tb) → BufTy
  | .hbm, ⟨0, _⟩ => ⟨S64x64x8192, .f32⟩
  | .hbm, ⟨1, _⟩ => ⟨S64x64x8192, .f32⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S64x64x8192, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x8192, .f32⟩
  | .local _ .vmem, ⟨5, _⟩ => ⟨S128x8192, .f32⟩
  | _, _ => ⟨S64x64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x64x8192_S4096x8192 : S64x64x8192.ShapeCasts S4096x8192
  shapeCasts_S4096x8192_S64x64x8192 : S4096x8192.ShapeCasts S64x64x8192
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  reduces_S128x8192_S128 : S128x8192.Reduces [1] S128
  shapeCasts_S128_S128x1 : S128.ShapeCasts S128x1
  broadcasts_S128x1_S128x8192 : S128x1.Broadcasts S128x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S4096x8192.size a
  hwx0_0 : ∀ i : grid0.Coords, EltTy.bits .f32 = 32 ∨ (Rect.block (s := S4096x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S4096x8192.size a
  hwx0_1 : ∀ i : grid0.Coords, EltTy.bits .f32 = 32 ∨ (Rect.block (s := S4096x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S4096x8192.size a
  hwx0_2 : ∀ i : grid0.Coords, EltTy.bits .f32 = 32 ∨ (Rect.block (s := S4096x8192) S128x8192.size (cc0_transform_2 i) (hinb0_2 i)).WholeWords (EltTy.packing .f32)

variable [Facts₀]

abbrev win0_0 : Pipeline.Window sig grid0 :=
  Pipeline.Window.ofSpec (Memref.whole main_call0_v0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S128x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 1 2

variable [Facts]
-- ==== ReferenceIdeal.lean ====
abbrev S64x64x8192 : Shape := ⟨3, ![64, 64, 8192]⟩
abbrev S_ : Shape := ⟨0, ![]⟩
abbrev S64x64 : Shape := ⟨2, ![64, 64]⟩
abbrev S64x64x1 : Shape := ⟨3, ![64, 64, 1]⟩

abbrev nBuf : Space → Nat
  | .hbm => 17
  | .vmem => 0
  | .smem => 0
  | _ => 0

abbrev bufTy : (tb : Table) → Fin (tcTables nBuf tb) → BufTy
  | .hbm, ⟨0, _⟩ => ⟨S64x64x8192, .f32⟩
  | .hbm, ⟨1, _⟩ => ⟨S64x64x8192, .f32⟩
  | .hbm, ⟨2, _⟩ => ⟨S_, .f32⟩
  | .hbm, ⟨3, _⟩ => ⟨S64x64, .f32⟩
  | .hbm, ⟨4, _⟩ => ⟨S64x64x1, .f32⟩
  | .hbm, ⟨5, _⟩ => ⟨S_, .f32⟩
  | .hbm, ⟨6, _⟩ => ⟨S64x64x1, .f32⟩
  | .hbm, ⟨7, _⟩ => ⟨S64x64x1, .f32⟩
  | .hbm, ⟨8, _⟩ => ⟨S_, .f32⟩
  | .hbm, ⟨9, _⟩ => ⟨S64x64, .f32⟩
  | .hbm, ⟨10, _⟩ => ⟨S64x64x1, .f32⟩
  | .hbm, ⟨11, _⟩ => ⟨S_, .f32⟩
  | .hbm, ⟨12, _⟩ => ⟨S64x64x1, .f32⟩
  | .hbm, ⟨13, _⟩ => ⟨S64x64x1, .f32⟩
  | .hbm, ⟨14, _⟩ => ⟨S64x64x1, .f32⟩
  | .hbm, ⟨15, _⟩ => ⟨S64x64x8192, .f32⟩
  | .hbm, ⟨16, _⟩ => ⟨S64x64x8192, .f32⟩
  | _, _ => ⟨S64x64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  reducesTo_S64x64x8192_S64x64_d2 : S64x64x8192.ReducesTo [2] S64x64
  h_S_ : 0 < S_.numel
  bcast_S64x64_S64x64x1_0_1 : S64x64.BroadcastsInDim S64x64x1 (![0, 1] : Fin 2 → Fin S64x64x1.rank)
  bcast_S_S64x64x1 : S_.BroadcastsInDim S64x64x1 (![] : Fin 0 → Fin S64x64x1.rank)
  bcast_S64x64x1_S64x64x8192_0_1_2 : S64x64x1.BroadcastsInDim S64x64x8192 (![0, 1, 2] : Fin 3 → Fin S64x64x8192.rank)

variable [Facts₀]

class Facts : Prop extends Facts₀ where

variable [Facts]
-- ==== Proof.LibRowOps.lean ====
/-
  Row-wise operations of two-dimensional arrays read at one entry, on the extended reals, at ANY extents.

  * A sum along the columns of an [R, C] matrix (a reduction over axis 1) read at row p is Σ_{k < C} src(p, k): for the
    vector unit's reduction from the zero word (`rowAdd_apply`) and for the host's reduction from an initial value,
    which is added in front (`hostRowAdd_apply`).
  * A vector [a] viewed as a column [a, 1] reads, at (i, u), the vector at i (`shapeCast_a_a1_apply`); a column
    [a, 1] repeated along b columns reads, at (p, c), the column at (p, 0) (`broadcastTo_a1_ab_apply`).
  * The host's general matrix product of [R, K] by [K, C], contracting the left operand's axis 1 with the right
    operand's axis 0, read at (p, q), is Σ_{k < K} l(p, k) · r(k, q) (`dotGeneral_ix2`): the contraction's one-axis
    index is re-indexed over `Fin K`, and the operand indices at result entry (p, q) and position k are (p, k), (k, q).
  * Three matrices of a, b and c columns laid side by side read, at a column, the matrix whose span of columns holds it,
    at the column less the widths before it (`concat3_apply_0`, `_1`, `_2`; for two matrices `concat2_apply_0`, `_1`).
  Imports only the library.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

/-- A sum along the columns of an [R, C] matrix, at row p, is the sum over the columns of that row's entries. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (p : Fin R) :
    multiReduction .add [1] ⟨1, ![R]⟩ src 0x00000000#32 h hφ hacc (ix1 p) = ∑ k : Fin C, src (ix2 p k) :=
  (Ideal.multiReduction_add_single src _ h hφ hacc (ix1 p)).trans
    (Finset.sum_congr rfl fun k _ => congrArg src (funext fun d => Fin.ext (by
      match d with
      | ⟨0, _⟩ => rfl
      | ⟨1, _⟩ => rfl)))

/-- The host's sum along the columns, at row p: the initial value plus the sum over the columns of that row's entries. -/
theorem hostRowAdd_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) :=
  (Ideal.hostReduceAdd_single h' h x (init (Shape.Idx.first hu)) (ix1 p)).trans
    (congrArg (init (Shape.Idx.first hu) + ·) (Finset.sum_congr rfl fun k _ => congrArg x (funext fun d => Fin.ext (by
      match d with
      | ⟨0, _⟩ => rfl
      | ⟨1, _⟩ => rfl))))

/-- A vector [a] viewed as a column [a, 1] reads, at (i, u), the vector at i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `dot_general D l r (p, q) = Σ_k l(p, k) · r(k, q)` at the ideal values, for two-dimensional operands with one
    contracted axis (the left operand's axis 1 with the right operand's axis 0). -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral (F := Ideal) D prec l r (ix2 p q) = ∑ k : Fin K, l (ix2 p k) * r (ix2 k q) := by
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

/-! ## Three matrices side by side -/

section Concat3
variable {α : Type} {R a b c n : Nat}
  (x1 : (⟨2, ![R, a]⟩ : Shape).Idx → α) (x2 : (⟨2, ![R, b]⟩ : Shape).Idx → α) (x3 : (⟨2, ![R, c]⟩ : Shape).Idx → α)
  (h : Shape.Concatenates [(⟨2, ![R, a]⟩ : Shape), ⟨2, ![R, b]⟩, ⟨2, ![R, c]⟩] ⟨2, ![R, n]⟩ 1)

/-- Three matrices of a, b and c columns side by side read, at a column q below a, the first at column q. -/
theorem concat3_apply_0 (p : Fin R) (q : Fin n) (q' : Fin a) (hq : q'.val = q.val) :
    concatenate ⟨2, ![R, n]⟩ 1 [⟨⟨2, ![R, a]⟩, x1⟩, ⟨⟨2, ![R, b]⟩, x2⟩, ⟨⟨2, ![R, c]⟩, x3⟩] h (ix2 p q) = x1 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat3_apply_1 (p : Fin R) (q : Fin n) (q' : Fin b) (hq : a + q'.val = q.val) :
    concatenate ⟨2, ![R, n]⟩ 1 [⟨⟨2, ![R, a]⟩, x1⟩, ⟨⟨2, ![R, b]⟩, x2⟩, ⟨⟨2, ![R, c]⟩, x3⟩] h (ix2 p q) = x2 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

/-- At a column a + b + q', the third at column q'. -/
theorem concat3_apply_2 (p : Fin R) (q : Fin n) (q' : Fin c) (hq : a + b + q'.val = q.val) :
    concatenate ⟨2, ![R, n]⟩ 1 [⟨⟨2, ![R, a]⟩, x1⟩, ⟨⟨2, ![R, b]⟩, x2⟩, ⟨⟨2, ![R, c]⟩, x3⟩] h (ix2 p q) = x3 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 2 (by simp)
    ⟨2, ![R, c]⟩ x3 rfl rfl (a + b) (by simp) (ix2 p q')
    (fun d hd => by
      match d with
      | ⟨0, _⟩ => rfl
      | ⟨1, _⟩ => exact absurd rfl hd)
    (by show a + b + q'.val = q.val; omega)

end Concat3

/-! ## Two matrices side by side -/

section Concat2
variable {α : Type} {R a b n : Nat}
  (x1 : (⟨2, ![R, a]⟩ : Shape).Idx → α) (x2 : (⟨2, ![R, b]⟩ : Shape).Idx → α)
  (h : Shape.Concatenates [(⟨2, ![R, a]⟩ : Shape), ⟨2, ![R, b]⟩] ⟨2, ![R, n]⟩ 1)

/-- Two matrices of a and b columns side by side read, at a column q below a, the first at column q. -/
theorem concat2_apply_0 (p : Fin R) (q : Fin n) (q' : Fin a) (hq : q'.val = q.val) :
    concatenate ⟨2, ![R, n]⟩ 1 [⟨⟨2, ![R, a]⟩, x1⟩, ⟨⟨2, ![R, b]⟩, x2⟩] h (ix2 p q) = x1 (ix2 p q') :=
  concatenate_apply_piece (t := ⟨2, ![R, n]⟩) (1 : Fin 2) [⟨⟨2, ![R, a]⟩, x1⟩, ⟨⟨2, ![R, b]⟩, x2⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat2_apply_1 (p : Fin R) (q : Fin n) (q' : Fin b) (hq : a + q'.val = q.val) :
    concatenate ⟨2, ![R, n]⟩ 1 [⟨⟨2, ![R, a]⟩, x1⟩, ⟨⟨2, ![R, b]⟩, x2⟩] h (ix2 p q) = x2 (ix2 p q') :=
  concatenate_apply_piece (t := ⟨2, ![R, n]⟩) (1 : Fin 2) [⟨⟨2, ![R, a]⟩, x1⟩, ⟨⟨2, ![R, b]⟩, x2⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

end Concat2

end Cert.LibRowOps

end
-- ==== Proof.LineMeans.lean ====
/-
  The function both programs compute, on the extended reals.

  Take two arrays x and y of one shape and call a LINE the run of entries along the last axis, of length C.  Every
  entry of y is scaled by the sum of the two means of the line it lies on:

      out(…, l) = y(…, l) · ( (Σ_k x(…, k)) / L  +  (Σ_k y(…, k)) / L ),        L the float literal 8192.0 .

  The formula is written twice: for a matrix [R, C], whose lines are its rows (`scaledRows`), and for a cube
  [A, B, C], whose lines run along its last axis (`scaledLines`).  A cube [64, 64, 8192] read in row-major order is
  a matrix [4096, 8192]: entry (a, b, k) of the cube is entry (64·a + b, k) of the matrix (`flat_apply`,
  `cube_apply`), so a line of the cube is a row of the matrix, entry for entry, and scaling the rows of the
  flattened arrays and folding the result back is scaling the lines of the cube (`scaledLines_eq`).

  The division is the extended reals' division as the float operations read it and the sums are sums of extended
  reals; the two sides are the same expression of the same entries, so nothing is assumed finite and the divisor
  is never evaluated.
-/
import Idealize.ShloMosaic.PureOps.Ideal
import Idealize.ShloMosaic.Lib.ValueIdx
import Idealize.ShloMosaic.Lib.Pipeline.Value

noncomputable section

open scoped BigOperators

namespace Cert.LineMeans

open Idealize.ShloMosaic Idealize.ShloMosaic.ValueIdx

/-- The length of a line as both programs write it: the float literal 8192.0. -/
abbrev lineLen : EReal := Ideal.ofBits .f32 0x46000000#32

/-! ## Matrices: the lines are the rows -/

/-- The factor of row p: the mean of x's row p plus the mean of y's row p. -/
def rowFactor {R C : Nat} (x y : (⟨2, ![R, C]⟩ : Shape).Idx → EReal) (p : Fin R) : EReal :=
  Ideal.div (∑ k : Fin C, x (ix2 p k)) lineLen + Ideal.div (∑ k : Fin C, y (ix2 p k)) lineLen

/-- Every entry of y times the factor of its row. -/
def scaledRows {R C : Nat} (x y : (⟨2, ![R, C]⟩ : Shape).Idx → EReal) : (⟨2, ![R, C]⟩ : Shape).Idx → EReal :=
  fun j => y j * rowFactor x y (j 0)

theorem scaledRows_apply {R C : Nat} (x y : (⟨2, ![R, C]⟩ : Shape).Idx → EReal) (p : Fin R) (q : Fin C) :
    scaledRows x y (ix2 p q) = y (ix2 p q) * rowFactor x y p := rfl

/-! ## Cubes: the lines run along the last axis -/

/-- The factor of line (a, b): the mean of x's line plus the mean of y's line. -/
def lineFactor {A B C : Nat} (x y : (⟨3, ![A, B, C]⟩ : Shape).Idx → EReal) (a : Fin A) (b : Fin B) : EReal :=
  Ideal.div (∑ k : Fin C, x (ix3 a b k)) lineLen + Ideal.div (∑ k : Fin C, y (ix3 a b k)) lineLen

/-- Every entry of y times the factor of its line. -/
def scaledLines {A B C : Nat} (x y : (⟨3, ![A, B, C]⟩ : Shape).Idx → EReal) : (⟨3, ![A, B, C]⟩ : Shape).Idx → EReal :=
  fun i => y i * lineFactor x y (i 0) (i 1)

theorem scaledLines_apply {A B C : Nat} (x y : (⟨3, ![A, B, C]⟩ : Shape).Idx → EReal) (a : Fin A) (b : Fin B) (l : Fin C) :
    scaledLines x y (ix3 a b l) = y (ix3 a b l) * lineFactor x y a b := rfl

/-! ## The cube [64, 64, 8192] as the matrix [4096, 8192] -/

/-- The cube viewed as a matrix: entry (r, k) of the matrix is entry (a, b, k) of the cube when r = 64·a + b
    (both sit at position (64·a + b)·8192 + k of the row-major order). -/
theorem flat_apply {α : Type} (x : (⟨3, ![64, 64, 8192]⟩ : Shape).Idx → α)
    (h : (⟨3, ![64, 64, 8192]⟩ : Shape).ShapeCasts ⟨2, ![4096, 8192]⟩)
    (a b : Fin 64) (r : Fin 4096) (k : Fin 8192) (hr : r.val = a.val * 64 + b.val) :
    shapeCast ⟨2, ![4096, 8192]⟩ x h (ix2 r k) = x (ix3 a b k) :=
  shapeCast_apply x h _ _ (by
    rw [Shape.rowMajor_val_three, Shape.rowMajor_val_two]
    show (a.val * 64 + b.val) * 8192 + k.val = r.val * 8192 + k.val
    rw [hr])

/-- The matrix viewed as a cube: entry (a, b, l) of the cube is entry (r, l) of the matrix when r = 64·a + b. -/
theorem cube_apply {α : Type} (z : (⟨2, ![4096, 8192]⟩ : Shape).Idx → α)
    (h : (⟨2, ![4096, 8192]⟩ : Shape).ShapeCasts ⟨3, ![64, 64, 8192]⟩)
    (a b : Fin 64) (r : Fin 4096) (l : Fin 8192) (hr : r.val = a.val * 64 + b.val) :
    shapeCast ⟨3, ![64, 64, 8192]⟩ z h (ix3 a b l) = z (ix2 r l) :=
  shapeCast_apply z h _ _ (by
    rw [Shape.rowMajor_val_two, Shape.rowMajor_val_three]
    show r.val * 8192 + l.val = (a.val * 64 + b.val) * 8192 + l.val
    rw [hr])

/-- Scaling the rows of the flattened arrays and folding the result back into a cube is scaling the lines of the
    cube: row 64·a + b of a flattened array is line (a, b) of the cube, entry for entry, so the two row sums are
    the two line sums and the scaled entry is the same entry of y. -/
theorem scaledLines_eq (x y : (⟨3, ![64, 64, 8192]⟩ : Shape).Idx → EReal)
    (hf : (⟨3, ![64, 64, 8192]⟩ : Shape).ShapeCasts ⟨2, ![4096, 8192]⟩)
    (hb : (⟨2, ![4096, 8192]⟩ : Shape).ShapeCasts ⟨3, ![64, 64, 8192]⟩) :
    shapeCast ⟨3, ![64, 64, 8192]⟩
        (scaledRows (shapeCast ⟨2, ![4096, 8192]⟩ x hf) (shapeCast ⟨2, ![4096, 8192]⟩ y hf)) hb
      = scaledLines x y := by
  funext i
  obtain ⟨a, b, l, rfl⟩ : ∃ (a b : Fin 64) (l : Fin 8192), i = ix3 a b l := ⟨i 0, i 1, i 2, eq_ix3 i⟩
  have hlt : a.val * 64 + b.val < 4096 := by
    have ha : a.val < 64 := a.isLt
    have hb' : b.val < 64 := b.isLt
    omega
  have ex : ∀ k : Fin 8192, shapeCast ⟨2, ![4096, 8192]⟩ x hf (ix2 (⟨a.val * 64 + b.val, hlt⟩ : Fin 4096) k) = x (ix3 a b k) :=
    fun k => flat_apply x hf a b ⟨a.val * 64 + b.val, hlt⟩ k rfl
  have ey : ∀ k : Fin 8192, shapeCast ⟨2, ![4096, 8192]⟩ y hf (ix2 (⟨a.val * 64 + b.val, hlt⟩ : Fin 4096) k) = y (ix3 a b k) :=
    fun k => flat_apply y hf a b ⟨a.val * 64 + b.val, hlt⟩ k rfl
  rw [cube_apply _ hb a b ⟨a.val * 64 + b.val, hlt⟩ l rfl, scaledRows_apply, scaledLines_apply]
  unfold rowFactor lineFactor
  simp only [ex, ey]

end Cert.LineMeans

end
-- ==== Proof.BlockValue.lean ====
/-
  What the kernel body stores for one block of 128 rows.

  The body loads a block X of x and a block Y of y, each 128 rows of 8192 entries, and stores

      Y(p, q) · ( (Σ_k X(p, k)) / L + (Σ_k Y(p, k)) / L )

  at entry (p, q): each row of Y scaled by the sum of the two row means (`LineMeans.scaledRows` of the block).
  Read at one entry, the body's operations are: the product at (p, q); the factor, a column [128, 1] repeated along the
  8192 columns, read at (p, 0); there a sum of two quotients; each quotient the row sum — the sum along the columns
  from zero, viewed as a column — over the literal L repeated.  The casts of a block to its own shape are the
  identity.
-/
import proofs.«101003_j936302870541_2_alg».proof.Proof.Gen.KernelIdeal.Skeleton
import proofs.«101003_j936302870541_2_alg».proof.Proof.LibRowOps
import proofs.«101003_j936302870541_2_alg».proof.Proof.LineMeans
import Idealize.ShloMosaic.Lib.ValueIdx
import Idealize.ShloMosaic.Lib.Pipeline.Value

noncomputable section

open scoped BigOperators

namespace Cert.KernelIdeal.BlockValue

open Cert.KernelIdeal Cert.KernelIdeal.Gen Idealize.ShloMosaic Idealize.ShloMosaic.ValueIdx Cert.LineMeans

/-- The sum along the columns of a block (cast to its own shape), viewed as a column and read at (p, 0), is the sum of
    the block's row p. -/
theorem rowSum_col (v : FVec Ideal S128x8192 .f32) (p : Fin 128) :
    shapeCast S128x1
        (multiReduction .add [1] S128 (shapeCast S128x8192 v shapeCasts_S128x8192_S128x8192) 0x00000000#32
          reduces_S128x8192_S128 (.inl rfl) rfl)
        shapeCasts_S128_S128x1 (ix2 p (0 : Fin 1))
      = ∑ k : Fin 8192, v (ix2 p k) := by
  refine (Cert.LibRowOps.shapeCast_a_a1_apply _ shapeCasts_S128_S128x1 p 0).trans ?_
  refine (Cert.LibRowOps.rowAdd_apply _ reduces_S128x8192_S128 (.inl rfl) rfl p).trans ?_
  rw [shapeCast_self]

/-- The stored value at entry (p, q) of the block. -/
theorem pay_apply (x0 x1 : FVec Ideal S128x8192 .f32) (p : Fin 128) (q : Fin 8192) :
    k0_pay1 (F := Ideal) x0 x1 (ix2 p q) = x1 (ix2 p q) * rowFactor (R := 128) (C := 8192) x0 x1 p := by
  unfold k0_pay1 rowFactor
  refine (mulf_apply _ _ (ix2 p q)).trans ?_
  refine congrArg₂ (· * ·) (congrFun (shapeCast_self x1 _) _) ?_
  refine (Cert.LibRowOps.broadcastTo_a1_ab_apply _ broadcasts_S128x1_S128x8192 p q).trans ?_
  refine (addf_apply _ _ _).trans ?_
  refine congrArg₂ (· + ·) ?_ ?_
  · refine (divf_apply _ _ _).trans ?_
    exact congrArg₂ Ideal.div (rowSum_col x0 p) rfl
  · refine (divf_apply _ _ _).trans ?_
    exact congrArg₂ Ideal.div (rowSum_col x1 p) rfl

/-- The stored block is the block's rows scaled. -/
theorem pay_eq (x0 x1 : FVec Ideal S128x8192 .f32) :
    k0_pay1 (F := Ideal) x0 x1 = scaledRows (R := 128) (C := 8192) x0 x1 := by
  funext j
  obtain ⟨p, q, rfl⟩ : ∃ (p : Fin 128) (q : Fin 8192), j = ix2 p q := ⟨j 0, j 1, eq_ix2 j⟩
  exact pay_apply x0 x1 p q

end Cert.KernelIdeal.BlockValue

end
-- ==== Proof.ArrayValue.lean ====
/-
  What the kernel's program leaves in its result: the scaled lines of the cube.

  The program views the two cubes x, y of shape [64, 64, 8192] as matrices X, Y of shape [4096, 8192], runs the body on
  32 blocks of 128 whole rows each, and views the resulting matrix as a cube again.

  * Point t of the grid handles rows 128·t … 128·t + 127, every column, of all three matrices: entry (p, k) of a
    block at t is entry (128·t + p, k) of its matrix (`idx_rows`, `block_row`).
  * The body's stored block is the block's rows scaled (BlockValue), and a row's scaling only reads that row, which
    lies wholly inside the block: so what point t writes back is block t of the scaled rows of X and Y
    (`flushed_eq`).
  * Row r is in the block of point r / 128, so the 32 blocks cover the matrix (`cover`) and the result matrix is the
    scaled rows of X and Y (`final`).
  * X and Y are the cubes in row-major order (`entry_X`, `entry_Y`), and the program's result is the result matrix in
    row-major order (`tail_eq`); with LineMeans' `scaledLines_eq` the result is the scaled lines of x and y (`run`).
-/
import proofs.«101003_j936302870541_2_alg».proof.Proof.Gen.KernelIdeal.Frame
import proofs.«101003_j936302870541_2_alg».proof.Proof.BlockValue
import proofs.«101003_j936302870541_2_alg».proof.Proof.LineMeans
import Idealize.ShloMosaic.Lib.Pipeline.Value
import Idealize.ShloMosaic.Lib.StableHlo.Run
import Idealize.ShloMosaic.Lib.ValueIdx

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.LineMeans
open Idealize.ShloMosaic.Pipeline (Dat)

variable (m : (ℓ : Loc nD τ sig) → Buf (Elt Ideal) ℓ) (ρ : Dev nD → PrngReg)

/-! ## The blocks: point t holds rows 128·t … 128·t + 127 -/

theorem zero_offset : (![0, 0] : Fin 2 → Nat) = fun _ => 0 := funext fun a => by fin_cases a <;> rfl

/-- The three index maps, over the 32 points: block row t, block column 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 32 := by
  have h := t.isLt
  have e : cfg0.N = 32 := N_0
  omega

/-- Entry (p, k) of X's block at point t is entry (128·t + p, k) of X. -/
theorem block_row_X (c : Dev nD) (t : Fin cfg0.N) (p : Fin 128) (k : Fin 8192) (r : Fin 4096) (hr : r.val = t.val * 128 + p.val) :
    (iblk m c 0 t : Vec Ideal S128x8192 .f32) (ix2 p k) = V m c main_call0_v0 (ix2 r k) := by
  show V m c main_call0_v0 (((cfg0.win 0).blk t).view.emb (ix2 p k)) = V m c main_call0_v0 (ix2 r k)
  refine congrArg (V m c main_call0_v0) ?_
  obtain ⟨e0, e1, -, -, -, -⟩ := idx_rows t
  funext a; apply Fin.ext
  match a with
  | ⟨0, _⟩ => show win0_0.index t (0 : Fin 2) * 128 + 1 * p.val = r.val; omega
  | ⟨1, _⟩ => show win0_0.index t (1 : Fin 2) * 8192 + 1 * k.val = k.val; omega

/-- Entry (p, k) of Y's block at point t is entry (128·t + p, k) of Y. -/
theorem block_row_Y (c : Dev nD) (t : Fin cfg0.N) (p : Fin 128) (k : Fin 8192) (r : Fin 4096) (hr : r.val = t.val * 128 + p.val) :
    (iblk m c 1 t : Vec Ideal S128x8192 .f32) (ix2 p k) = V m c main_call0_v1 (ix2 r k) := by
  show V m c main_call0_v1 (((cfg0.win 1).blk t).view.emb (ix2 p k)) = V m c main_call0_v1 (ix2 r k)
  refine congrArg (V m c main_call0_v1) ?_
  obtain ⟨-, -, e0, e1, -, -⟩ := idx_rows t
  funext a; apply Fin.ext
  match a with
  | ⟨0, _⟩ => show win0_1.index t (0 : Fin 2) * 128 + 1 * p.val = r.val; omega
  | ⟨1, _⟩ => show win0_1.index t (1 : Fin 2) * 8192 + 1 * k.val = k.val; omega

/-- Entry (p, q) of the result's block at point t sits at (128·t + p, q) of the result matrix. -/
theorem block_row_out (t : Fin cfg0.N) (p : Fin 128) (q : Fin 8192) (r : Fin 4096) (hr : r.val = t.val * 128 + p.val) :
    ((cfg0.win 2).blk t).view.emb (ix2 p q) = (ix2 r q : S4096x8192.Idx) := by
  obtain ⟨-, -, -, -, e0, e1⟩ := idx_rows t
  funext a; apply Fin.ext
  match a with
  | ⟨0, _⟩ => show win0_2.index t (0 : Fin 2) * 128 + 1 * p.val = r.val; omega
  | ⟨1, _⟩ => show win0_2.index t (1 : Fin 2) * 8192 + 1 * q.val = q.val; omega

/-! ## What a point writes back -/

/-- Point t writes back block t of the scaled rows of X and Y: the stored block is its own rows scaled, and row p of the
    block is row 128·t + p of the matrices, whole. -/
theorem flushed_eq (c : Dev nD) (t : Fin cfg0.N) :
    (dats m 0 c).flushed 2 t
      = ((cfg0.win 2).blk t).view.read (Elt Ideal)
          (scaledRows (R := 4096) (C := 8192) (V m c main_call0_v0) (V m c main_call0_v1)) := by
  show (cfg0.win 2).cut (grid0.coords t) ((dats m 0 c).after 2 t) = _
  rw [after0_2]
  unfold out0_2
  rw [View.canon_unit_zero zero_offset]
  simp only [View.ld_unit_zero (S := S128x8192) zero_offset]
  rw [BlockValue.pay_eq]
  funext j
  obtain ⟨p, q, rfl⟩ : ∃ (p : Fin 128) (q : Fin 8192), j = ix2 p q := ⟨j 0, j 1, eq_ix2 j⟩
  have ht := point_lt t
  have hp : p.val < 128 := p.isLt
  have hlt : t.val * 128 + p.val < 4096 := by omega
  show scaledRows (R := 128) (C := 8192) (iblk m c 0 t) (iblk m c 1 t) (ix2 p q)
    = scaledRows (R := 4096) (C := 8192) (V m c main_call0_v0) (V m c main_call0_v1) (((cfg0.win 2).blk t).view.emb (ix2 p q))
  rw [block_row_out t p q ⟨t.val * 128 + p.val, hlt⟩ rfl, scaledRows_apply, scaledRows_apply]
  refine congrArg₂ (· * ·) (block_row_Y m c t p q _ rfl) ?_
  unfold rowFactor
  refine congrArg₂ (· + ·) (congrArg (Ideal.div · lineLen) ?_) (congrArg (Ideal.div · lineLen) ?_)
  · exact Finset.sum_congr rfl fun k _ => block_row_X m c t p k _ rfl
  · exact Finset.sum_congr rfl fun k _ => block_row_Y m c t p k _ rfl

/-! ## The blocks cover the matrix -/

/-- An entry of the result matrix is in point t's block iff each coordinate is in the block's range on its axis. -/
theorem mem_blk (t : Fin cfg0.N) (i : S4096x8192.Idx) :
    i ∈ ((cfg0.win 2).blk t).view.set ↔ ∀ a : Fin 2, win0_2.index t a * S128x8192.size a ≤ (i a).val ∧ (i a).val < win0_2.index t a * S128x8192.size a + S128x8192.size a := by
  show i ∈ ((View.whole main_call0_v2).slice (win0_2.rect t)).set ↔ _
  rw [View.set_slice_whole, Rect.mem_set_unit]
  exact Iff.rfl

/-- Row r is in the block of point r / 128. -/
theorem cover (i : S4096x8192.Idx) : ∃ t : Fin cfg0.N, (cfg0.win 2).flush t = true ∧ i ∈ ((cfg0.win 2).blk t).view.set := by
  have hi0 : (i 0).val < 4096 := (i 0).isLt
  have hi1 : (i 1).val < 8192 := (i 1).isLt
  have hN : cfg0.N = 32 := N_0
  have hq : (i 0).val / 128 < cfg0.N := by rw [hN]; omega
  obtain ⟨-, -, -, -, e0, e1⟩ := idx_rows ⟨(i 0).val / 128, hq⟩
  have e0' : win0_2.index ⟨(i 0).val / 128, hq⟩ (0 : Fin 2) = (i 0).val / 128 := e0
  refine ⟨⟨(i 0).val / 128, hq⟩, flush0_2 _, ?_⟩
  rw [mem_blk]
  intro a
  match a with
  | ⟨0, _⟩ =>
    show win0_2.index ⟨(i 0).val / 128, hq⟩ (0 : Fin 2) * 128 ≤ (i 0).val ∧ (i 0).val < win0_2.index ⟨(i 0).val / 128, hq⟩ (0 : Fin 2) * 128 + 128
    omega
  | ⟨1, _⟩ =>
    show win0_2.index ⟨(i 0).val / 128, hq⟩ (1 : Fin 2) * 8192 ≤ (i 1).val ∧ (i 1).val < win0_2.index ⟨(i 0).val / 128, hq⟩ (1 : Fin 2) * 8192 + 8192
    omega

/-- The result matrix after the region: the scaled rows of X and Y. -/
theorem final (c : Dev nD) :
    (dats m 0 c).arrAt 2 cfg0.N = scaledRows (R := 4096) (C := 8192) (V m c main_call0_v0) (V m c main_call0_v1) :=
  (dats m 0 c).arrAt_eq_of_cover 2 _ (fun t _ => flushed_eq m c t) cover

/-! ## The views before and after the region -/

/-- X is the cube x in row-major order. -/
theorem entry_X (c : Dev nD) :
    (V m c main_call0_v0 : S4096x8192.Idx → EReal)
      = shapeCast S4096x8192 (m ((c : Thread nD τ).loc main_arg0)) shapeCasts_S64x64x8192_S4096x8192 := by
  show StableHlo.after hostOps0 (fun b => m (c, b)) (Proc.devRef .tc main_call0_v0) = _
  after_results
  rfl

/-- Y is the cube y in row-major order. -/
theorem entry_Y (c : Dev nD) :
    (V m c main_call0_v1 : S4096x8192.Idx → EReal)
      = shapeCast S4096x8192 (m ((c : Thread nD τ).loc main_arg1)) shapeCasts_S64x64x8192_S4096x8192 := by
  show StableHlo.after hostOps0 (fun b => m (c, b)) (Proc.devRef .tc main_call0_v1) = _
  after_results
  rfl

/-- The program's result is the result matrix in row-major order as a cube. -/
theorem tail_eq (c : Dev nD) :
    (Pipeline.afterTail₀ cfgs (dats m) 0 (V0 m) [hostOps1] c main_v0 : S64x64x8192.Idx → EReal)
      = shapeCast S64x64x8192 ((dats m 0 c).arrAt 2 cfg0.N) shapeCasts_S4096x8192_S64x64x8192 := by
  unfold Pipeline.afterTail₀
  show StableHlo.after hostOps1 _ (Proc.devRef .tc main_v0) = _
  after_results
  have hw : Pipeline.withArrays (cfgs 0).spec c (V0 m c) (fun w => (dats m 0 c).arrAt w (cfgs 0).N)
      (Proc.devRef .tc (Pipeline.arrRef spec0 2)) = (dats m 0 c).arrAt 2 cfg0.N :=
    Pipeline.withArrays_arr spec0 launch0.win.arr_inj c (V0 m c) (fun w => (dats m 0 c).arrAt w (cfgs 0).N) 2
  exact congrArg (fun A : S4096x8192.Idx → EReal => shapeCast S64x64x8192 A shapeCasts_S4096x8192_S64x64x8192) hw

/-- The program's result: the scaled lines of the cubes x and y. -/
theorem result_eq (c : Dev nD) :
    (Pipeline.afterTail₀ cfgs (dats m) 0 (V0 m) [hostOps1] c main_v0 : S64x64x8192.Idx → EReal)
      = scaledLines (A := 64) (B := 64) (C := 8192) (m ((c : Thread nD τ).loc main_arg0)) (m ((c : Thread nD τ).loc main_arg1)) := by
  refine (tail_eq m c).trans ?_
  rw [final m c, entry_X m c, entry_Y m c]
  exact scaledLines_eq _ _ _ _

/-! ## The run -/

/-- Every weakly fair execution of the kernel's program terminates with its result at the scaled lines of its two
    arguments, and the arguments unchanged. -/
theorem run : θ_run defs (onTc (τ := τ) (main (F := Ideal))) ⟨m, fun _ => 0, ρ⟩ fun r => ∀ c : Dev nD,
      r.2.mem ((c : Thread nD τ).loc main_v0)
        = scaledLines (A := 64) (B := 64) (C := 8192) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v0 (Pipeline.mem_restRefs_of main_v0 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.ArrayValue

end
-- ==== Proof.RefValue.lean ====
/-
  The reference computes the scaled lines of the cube.

  Read one operation at a time, entry (a, b, l) of the reference's result is

      y(a, b, l) · ( (0 + Σ_k x(a, b, k)) / L + (0 + Σ_k y(a, b, k)) / L ) :

  the product at the entry; the factor, an array [64, 64, 1] repeated along the last axis, read at (a, b, 0); there a
  sum of two quotients; each quotient a line sum — the sum along the last axis started from the literal zero, carried
  with a unit last axis — over the literal L repeated.  The literal zero is the real 0, so the initial values drop
  and what is left is `LineMeans.scaledLines` at the entry.
-/
import proofs.«101003_j936302870541_2_alg».proof.Proof.Gen.ReferenceIdeal.Read
import proofs.«101003_j936302870541_2_alg».proof.Proof.LineMeans
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.LineMeans

/-- The reference's result is the cube's lines scaled. -/
theorem result_eq (x y : (⟨S64x64x8192, .f32⟩ : BufTy).Contents (Elt Ideal)) :
    val_main_v10 (F := Ideal) x y = scaledLines (A := 64) (B := 64) (C := 8192) x y := by
  funext i
  obtain ⟨a, b, l, rfl⟩ : ∃ (a b : Fin 64) (l : Fin 8192), i = ix3 a b l := ⟨i 0, i 1, i 2, eq_ix3 i⟩
  -- the line an entry's factor is summed over: (a, b, k) for k along the last axis
  have ex : ∀ k : Fin 8192, idx_main_v0 (idx_main_v1 (idx_main_v9 (ix3 a b l))) k = ix3 a b k := fun k =>
    funext fun d => Fin.ext (by match d with | ⟨0, _⟩ => rfl | ⟨1, _⟩ => rfl | ⟨2, _⟩ => rfl)
  have ey : ∀ k : Fin 8192, idx_main_v4 (idx_main_v5 (idx_main_v9 (ix3 a b l))) k = ix3 a b k := fun k =>
    funext fun d => Fin.ext (by match d with | ⟨0, _⟩ => rfl | ⟨1, _⟩ => rfl | ⟨2, _⟩ => rfl)
  rw [scaledLines_apply, val_main_v10_apply, val_main_v9_apply, val_main_v8_apply, val_main_v3_apply, val_main_v7_apply,
    val_main_v1_apply, val_main_v5_apply, val_main_v0_apply, val_main_v4_apply, val_main_v2_apply, val_main_v6_apply,
    val_main_cst_0_apply, val_main_cst_2_apply, val_main_cst_apply, val_main_cst_1_apply]
  unfold lineFactor
  simp only [ex, ey, Ideal.mulf_def, Ideal.addf_def, Ideal.hostDivf_def, Ideal.ofBits_def, Ideal.ofBits_zero_f32, zero_add]

end Cert.ReferenceIdeal.RefValue

end
-- ==== Proof.lean ====
/-
  The kernel's program and the reference compute one function on the extended reals.

  Both take two cubes x, y of shape [64, 64, 8192] and return y with every entry scaled by the sum of the means of the
  two lines (runs of 8192 entries along the last axis) through it:

      out(a, b, l) = y(a, b, l) · ( (Σ_k x(a, b, k)) / 8192.0 + (Σ_k y(a, b, k)) / 8192.0 ).

  The reference does so on the cube directly (RefValue).  The kernel's program reads the cubes in row-major order as
  matrices [4096, 8192], so that a line becomes a row, scales the rows in 32 blocks of 128 whole rows (BlockValue: one
  block; ArrayValue: the blocks cover the matrix, and the views before and after), and reads the result as a cube
  again; a row of the matrix is a line of the cube entry for entry (LineMeans), so the result is the same expression
  of the same entries.  No law of arithmetic beyond 0 + s = s is used — the two sides divide the same sums by the same
  literal and add and multiply in the same order — so the finiteness of the inputs is never needed.

  The frames of the two kernel programs are the generated ones; the reference's frame is its generated run with the
  result dropped; the idealization rewrote nothing, so there is nothing to preserve.
-/
import proofs.«101003_j936302870541_2_alg».proof.Defs
import proofs.«101003_j936302870541_2_alg».proof.Proof.Gen.Kernel
import proofs.«101003_j936302870541_2_alg».proof.Proof.Gen.Kernel.Skeleton
import proofs.«101003_j936302870541_2_alg».proof.Proof.Gen.Kernel.Launch
import proofs.«101003_j936302870541_2_alg».proof.Proof.Gen.Kernel.Points
import proofs.«101003_j936302870541_2_alg».proof.Proof.Gen.Kernel.Frame
import proofs.«101003_j936302870541_2_alg».proof.Proof.Gen.KernelIdeal
import proofs.«101003_j936302870541_2_alg».proof.Proof.Gen.KernelIdeal.Skeleton
import proofs.«101003_j936302870541_2_alg».proof.Proof.Gen.KernelIdeal.Launch
import proofs.«101003_j936302870541_2_alg».proof.Proof.Gen.KernelIdeal.Points
import proofs.«101003_j936302870541_2_alg».proof.Proof.Gen.KernelIdeal.Frame
import proofs.«101003_j936302870541_2_alg».proof.Proof.Gen.ReferenceIdeal
import proofs.«101003_j936302870541_2_alg».proof.Proof.Gen.Pre_finite_inputs
import proofs.«101003_j936302870541_2_alg».proof.Proof.Gen.ReferenceIdeal.Run
import proofs.«101003_j936302870541_2_alg».proof.Proof.Gen.ReferenceIdeal.Read
import proofs.«101003_j936302870541_2_alg».proof.Proof.ArrayValue
import proofs.«101003_j936302870541_2_alg».proof.Proof.RefValue
import Idealize.ShloMosaic.Adequacy
import Idealize.ShloMosaic.Init

noncomputable section

namespace Cert.Proof

open Idealize.ShloMosaic Idealize.ShloMosaic.TcCoe Idealize.SL.Sem Cert.LineMeans

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x and y, the kernel's program and the reference both end with the scaled lines of x
    and y as their result. -/
theorem algebraic : Cert.algebraic_KernelIdeal_ReferenceIdeal := by
  intro m ρ m' ρ' _ hagree
  refine ⟨fun c => scaledLines (A := 64) (B := 64) (C := 8192)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
